-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_v65 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with its result named.

  @main is four segments: the host operations that aggregate the input features, the first layer's region, the host
  operations that aggregate the first layer's result, the second layer's region. Every weakly fair execution ends with
  each unscoped buffer at the last boundary's contents; read at the program's result buffer, that is what the second
  region's write-backs leave, and read at the arguments, the launch contents.
-/
import proofs.«125130_j34041910788776_1_alg».proof.Proof.Gen.KernelIdeal.Frame

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.Spec.lean ====
/-
  One GraphSAGE layer as a function of whole arrays, index by index, on the extended reals.

  For node `r` and output feature `j` the pre-activation is
    pre r j = (∑ k, mean[r,k] · Wl[k,j]) + (∑ k, x[r,k] · Wr[k,j]) + b[j],
  the row's Euclidean norm is `sqrt (∑ j, pre r j · pre r j)`, and the layer's value is
    max (pre r j / max (norm r) ε) 0
  with ε and 0 the two f32 literals both programs spell. Nothing here is evaluated: the literals stay
  bit patterns, the same on both sides.
-/
import Idealize.ShloMosaic.PureOps.Ideal
import Idealize.ShloMosaic.Lib.ValueIdx
import Idealize.ShloMosaic.PureOps.Ideal.Laws

noncomputable section

namespace Cert.SageSpec

open Idealize.ShloMosaic Idealize.ShloMosaic.ValueIdx

/-- Node features: 50000 nodes, 128 features. -/
abbrev Nodes : Shape := ⟨2, ![50000, 128]⟩
/-- A 128 × 128 weight matrix. -/
abbrev Wts : Shape := ⟨2, ![128, 128]⟩

/-- The layer's pre-activation at node `r`, feature `j`: the aggregated neighbours through `Wl`, the node itself
    through `Wr`, and the bias. -/
def pre (mean x : Nodes.Idx → EReal) (Wl Wr : Wts.Idx → EReal) (b : Fin 128 → EReal) (r : Fin 50000) (j : Fin 128) : EReal :=
  (∑ k : Fin 128, mean (ix2 r k) * Wl (ix2 k j)) + (∑ k : Fin 128, x (ix2 r k) * Wr (ix2 k j)) + b j

/-- A row of pre-activations divided by its norm (floored at ε), then clipped at zero. -/
def rowNormRelu (v : Fin 128 → EReal) (j : Fin 128) : EReal :=
  max (Ideal.div (v j) (max (Ideal.sqrt (∑ l : Fin 128, v l * v l)) (Ideal.ofBits .f32 0x2B8CBCCC#32)))
    (Ideal.ofBits .f32 0x00000000#32)

/-- A row sum started from the zero literal is the plain row sum (`0 + s = s` on the extended reals). -/
theorem rowNormRelu_init (v : Fin 128 → EReal) (j : Fin 128) :
    max (Ideal.div (v j) (max (Ideal.sqrt (Ideal.ofBits .f32 0x00000000#32 + ∑ l : Fin 128, v l * v l)) (Ideal.ofBits .f32 0x2B8CBCCC#32)))
      (Ideal.ofBits .f32 0x00000000#32) = rowNormRelu v j := by
  unfold rowNormRelu
  rw [Ideal.ofBits_zero_f32, zero_add]

/-- The layer: each row of pre-activations normalised and clipped. -/
def layer (mean x : Nodes.Idx → EReal) (Wl Wr : Wts.Idx → EReal) (b : Fin 128 → EReal) : Nodes.Idx → EReal :=
  fun i => rowNormRelu (pre mean x Wl Wr b (i 0)) (i 1)

theorem layer_ix2 (mean x : Nodes.Idx → EReal) (Wl Wr : Wts.Idx → EReal) (b : Fin 128 → EReal) (r : Fin 50000) (j : Fin 128) :
    layer mean x Wl Wr b (ix2 r j) = rowNormRelu (pre mean x Wl Wr b r) j := rfl

/-- The bias may be added before or after the second product: addition of extended reals is commutative and
    associative (no finiteness is needed for that). -/
theorem pre_bias_first (mean x : Nodes.Idx → EReal) (Wl Wr : Wts.Idx → EReal) (b : Fin 128 → EReal) (r : Fin 50000) (j : Fin 128) :
    (∑ k : Fin 128, mean (ix2 r k) * Wl (ix2 k j)) + b j + (∑ k : Fin 128, x (ix2 r k) * Wr (ix2 k j)) = pre mean x Wl Wr b r j :=
  add_right_comm _ _ _

end Cert.SageSpec

end
-- ==== Proof.Payload.lean ====
/-
  What the kernel body stores, read at one entry of the block.

  The body loads a 5000-row block of the aggregated features and of the node features, the two weight matrices and the
  bias row; it forms the two products into zero accumulators, adds them, adds the bias row to every row, squares,
  sums each row over its 128 lanes, takes the square root, floors it at ε, divides the row by that and clips at zero.
  At the exact values a change of float format is the identity, a product into a zero accumulator is the plain sum over
  the contracted index, and the lane reduction is the plain sum over the lane: so entry (p, q) of the stored block is
  `rowNormRelu` of row p of block-level pre-activations, at q.
-/
import proofs.«125130_j34041910788776_1_alg».proof.Proof.Gen.KernelIdeal.Skeleton
import proofs.«125130_j34041910788776_1_alg».proof.Proof.Spec
import Idealize.ShloMosaic.Lib.Pipeline.Value
import Idealize.ShloMosaic.Lib.ValueIdx
import Idealize.ShloMosaic.PureOps.Ideal.Laws

noncomputable section

namespace Cert.KernelIdeal.Sage

open Cert.KernelIdeal Cert.KernelIdeal.Gen Idealize.ShloMosaic Idealize.ShloMosaic.ValueIdx Cert.SageSpec

/-- Row `p` of a block's pre-activations: the block's rows through the two weight matrices, plus the bias row. -/
def preB (x0 x1 : S5000x128.Idx → EReal) (wl wr : S128x128.Idx → EReal) (b : S1x128.Idx → EReal) (p : Fin 5000) (j : Fin 128) : EReal :=
  (∑ k : Fin 128, x0 (ix2 p k) * wl (ix2 k j)) + (∑ k : Fin 128, x1 (ix2 p k) * wr (ix2 k j)) + b (ix2 0 j)

/-! ## The non-pointwise operations, each read at an entry -/

theorem lhsIdx_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsIdx_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsIdx_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsIdx_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at entry (p, q): the sum over the 128 contracted coordinates. -/
theorem matmul_block_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsIdx_0 _ _
    | ⟨1, _⟩ => exact (lhsIdx_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsIdx_0 _ _).trans hk
    | ⟨1, _⟩ => exact rhsIdx_1 _ _)
  rw [el, er]

/-- The bias row laid along every row of the block. -/
theorem bias_rows_apply (b : S1x128.Idx → EReal) (h : S1x128.Broadcasts S5000x128) (p : Fin 5000) (q : Fin 128) :
    broadcastTo S5000x128 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- A column of per-row values laid along every lane of the block. -/
theorem col_lanes_apply (v : S5000x1.Idx → EReal) (h : S5000x1.Broadcasts S5000x128) (p : Fin 5000) (q : Fin 128) :
    broadcastTo S5000x128 v h (ix2 p q) = v (ix2 p 0) :=
  broadcastTo_apply v h (ix2 p q) (ix2 p 0) (fun a => match a with
    | ⟨0, _⟩ => by show p.val = if (5000 : Nat) = 1 then 0 else p.val; rw [if_neg (by decide)]
    | ⟨1, _⟩ => by show 0 = if (1 : Nat) = 1 then 0 else _; rw [if_pos rfl])

/-- Per-row values recast as a one-lane column. -/
theorem col_cast_apply (v : S5000.Idx → EReal) (h : S5000.ShapeCasts S5000x1) (p : Fin 5000) :
    shapeCast S5000x1 v h (ix2 p 0) = v (ix1 p) :=
  shapeCast_apply v h (ix2 p 0) (ix1 p) (by
    rw [Shape.rowMajor_val_two]
    show (S5000.rowMajor (ix1 p)).val = p.val * 1 + 0
    rw [Shape.rowMajor_val_one]; show p.val = p.val * 1 + 0; omega)

/-- The lane reduction of a block at row `p`: the sum over the 128 lanes. -/
theorem lane_sum_apply (src : FVec Ideal S5000x128 .f32) (h : S5000x128.Reduces [1] S5000)
    (hacc : (0x00000000#32 : BitVec 32) = 0x00000000#32) (p : Fin 5000) :
    multiReduction .add [1] S5000 src 0x00000000#32 h (.inl rfl) hacc (ix1 p) = ∑ l : Fin 128, src (ix2 p l) := by
  refine (Ideal.multiReduction_add_single src 0x00000000#32 h (.inl rfl) hacc (ix1 p)).trans ?_
  refine Finset.sum_congr rfl fun l _ => congrArg src (funext fun a => Fin.ext ?_)
  match a with
  | ⟨0, _⟩ => rfl
  | ⟨1, _⟩ => rfl

/-! ## The stored block -/

/-- The block of pre-activations as the body spells it: the two products into zero accumulators, added, plus the bias
    row along every row. -/
def preK (x0 x1 : Vec Ideal S5000x128 .f32) (wl wr : Vec Ideal S128x128 .f32) (b : Vec Ideal S1x128 .f32) : FVec Ideal S5000x128 .f32 :=
  addf (addf (matmul dot_S5000x128_S128x128_S5000x128_1_0_0_1_n_n none (truncf .bf16 (shapeCast S5000x128 x0 shapeCasts_S5000x128_S5000x128) bitsLt_bf16_f32) (truncf .bf16 wl bitsLt_bf16_f32) (constant S5000x128 .f32 0x00000000#32))
      (matmul dot_S5000x128_S128x128_S5000x128_1_0_0_1_n_n none (truncf .bf16 x1 bitsLt_bf16_f32) (truncf .bf16 wr bitsLt_bf16_f32) (constant S5000x128 .f32 0x00000000#32)))
    (broadcastTo S5000x128 (shapeCast S1x128 b shapeCasts_S1x128_S1x128) broadcasts_S1x128_S5000x128)

/-- … which at entry (p, j) is the block-level pre-activation: the format changes are the identity and each product is
    its plain sum. -/
theorem preK_apply (x0 x1 : Vec Ideal S5000x128 .f32) (wl wr : Vec Ideal S128x128 .f32) (b : Vec Ideal S1x128 .f32) (p : Fin 5000) (j : Fin 128) :
    preK x0 x1 wl wr b (ix2 p j) = preB x0 x1 wl wr b p j := by
  unfold preK
  rw [addf_apply, addf_apply, matmul_block_apply, matmul_block_apply, bias_rows_apply, shapeCast_self, shapeCast_self]
  rfl

/-- The rest of the body over that block: square, sum the lanes, root, floor at ε, divide, clip. -/
def normRelu (v : FVec Ideal S5000x128 .f32) : FVec Ideal S5000x128 .f32 :=
  maximumf (divf v (broadcastTo S5000x128 (maximumf (sqrt (shapeCast S5000x1 (multiReduction .add [1] S5000 (mulf v v) 0x00000000#32 reduces_S5000x128_S5000 (.inl rfl) rfl) shapeCasts_S5000_S5000x1)) (broadcast S5000x1 (Scalar.ofBits .f32 0x2B8CBCCC#32))) broadcasts_S5000x1_S5000x128))
    (broadcast S5000x128 (Scalar.ofBits .f32 0x00000000#32))

theorem normRelu_apply (v : FVec Ideal S5000x128 .f32) (p : Fin 5000) (q : Fin 128) :
    normRelu v (ix2 p q) = rowNormRelu (fun j => v (ix2 p j)) q := by
  unfold normRelu
  rw [maximumf_apply, divf_apply, col_lanes_apply, maximumf_apply]
  show max (Ideal.div (v (ix2 p q)) (max (Ideal.sqrt (shapeCast S5000x1 (multiReduction .add [1] S5000 (mulf v v) 0x00000000#32 reduces_S5000x128_S5000 (.inl rfl) rfl) shapeCasts_S5000_S5000x1 (ix2 p 0))) (Ideal.ofBits .f32 0x2B8CBCCC#32))) (Ideal.ofBits .f32 0x00000000#32) = _
  rw [col_cast_apply, lane_sum_apply]
  rfl

/-- The first region's stored block is that chain of the loaded blocks. -/
theorem pay0_eq (x0 x1 : Vec Ideal S5000x128 .f32) (wl wr : Vec Ideal S128x128 .f32) (b : Vec Ideal S1x128 .f32) :
    k0_pay1 (F := Ideal) x0 x1 wl wr b = normRelu (preK x0 x1 wl wr b) := rfl

/-- The second region's body differs by one identity recast of the node block. -/
theorem pay1_eq (x0 x1 : Vec Ideal S5000x128 .f32) (wl wr : Vec Ideal S128x128 .f32) (b : Vec Ideal S1x128 .f32) :
    k1_pay1 (F := Ideal) x0 x1 wl wr b = normRelu (preK x0 x1 wl wr b) := by
  unfold k1_pay1 preK
  simp only [shapeCast_self]
  rfl

/-- Entry (p, q) of the block either region stores. -/
theorem pay0_apply (x0 x1 : Vec Ideal S5000x128 .f32) (wl wr : Vec Ideal S128x128 .f32) (b : Vec Ideal S1x128 .f32) (p : Fin 5000) (q : Fin 128) :
    k0_pay1 (F := Ideal) x0 x1 wl wr b (ix2 p q) = rowNormRelu (preB x0 x1 wl wr b p) q := by
  rw [pay0_eq, normRelu_apply]
  exact congrArg (fun f => rowNormRelu f q) (funext fun j => preK_apply x0 x1 wl wr b p j)

theorem pay1_apply (x0 x1 : Vec Ideal S5000x128 .f32) (wl wr : Vec Ideal S128x128 .f32) (b : Vec Ideal S1x128 .f32) (p : Fin 5000) (q : Fin 128) :
    k1_pay1 (F := Ideal) x0 x1 wl wr b (ix2 p q) = rowNormRelu (preB x0 x1 wl wr b p) q := by
  rw [pay1_eq, normRelu_apply]
  exact congrArg (fun f => rowNormRelu f q) (funext fun j => preK_apply x0 x1 wl wr b p j)

end Cert.KernelIdeal.Sage

end
-- ==== Proof.Blocks.lean ====
/-
  From what each grid point writes back to the whole result array, for both regions.

  Each region runs the same body over ten grid points; point `t` reads rows `5000 t … 5000 t + 4999` of the aggregated
  features and of the node features, the whole weight matrices and the bias row, and writes back the same rows of the
  result. A row of the layer depends only on that row of the two inputs, so what a point writes back is its block of the
  layer function of the whole arrays; the ten blocks tile the array, hence the array ends holding the layer of the
  arrays the region found at its entry.
-/
import proofs.«125130_j34041910788776_1_alg».proof.Proof.Gen.KernelIdeal.Frame
import proofs.«125130_j34041910788776_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Sage

open Cert.KernelIdeal Cert.KernelIdeal.Gen Idealize.ShloMosaic.ValueIdx Cert.SageSpec

theorem hz2 : (![0, 0] : Fin 2 → Nat) = fun _ => 0 := funext fun a => by fin_cases a <;> rfl

/-- The layer at an array index whose coordinates are known. -/
theorem layer_at (mean x : Nodes.Idx → EReal) (Wl Wr : Wts.Idx → EReal) (b : Fin 128 → EReal) (i : Nodes.Idx) (r : Fin 50000) (q : Fin 128)
    (h0 : (i 0).val = r.val) (h1 : (i 1).val = q.val) : layer mean x Wl Wr b i = rowNormRelu (pre mean x Wl Wr b r) q := by
  have e : i = ix2 r q := funext fun a => Fin.ext (by match a with | ⟨0, _⟩ => exact h0 | ⟨1, _⟩ => exact h1)
  rw [e]; rfl

/-- A block's row of pre-activations is the array's row, when the block's rows are the array's. -/
theorem preB_eq_pre (x0 x1 : S5000x128.Idx → EReal) (wl wr : S128x128.Idx → EReal) (bb : S1x128.Idx → EReal)
    (mean x : Nodes.Idx → EReal) (Wl Wr : Wts.Idx → EReal) (p : Fin 5000) (r : Fin 50000)
    (h0 : ∀ k : Fin 128, x0 (ix2 p k) = mean (ix2 r k)) (h1 : ∀ k : Fin 128, x1 (ix2 p k) = x (ix2 r k))
    (B : S1x128.Idx → EReal) (h2 : ∀ y, wl y = Wl y) (h4 : ∀ y, wr y = Wr y) (h3 : ∀ y, bb y = B y) :
    preB x0 x1 wl wr bb p = pre mean x Wl Wr (fun l => B (ix2 0 l)) r := by
  funext j
  unfold preB pre
  simp only [h0, h1, h2, h4, h3]

variable (V : (c : Dev nD) → (b : Ref sig .tc) → Buf (Elt Ideal) ((c : Thread nD τ).loc b))

/-! ## Region 0: from the blocks to the array -/

/-- The printed index maps of region 0, decided once over its ten grid points: the two row-blocked inputs and the output
    sit at row block `t`, the weights and the bias row at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated-features block at point `t` is row `5000 t + p` of the array. -/
theorem blk0_mean (c : Dev nD) (t : Fin cfg0.N) (y : S5000x128.Idx) (i : S50000x128.Idx)
    (h0 : (i 0).val = t.val * 5000 + (y 0).val) (h1 : (i 1).val = (y 1).val) :
    (iblk0 V c 0 t : S5000x128.Idx → EReal) y = (V c main_v22 : S50000x128.Idx → EReal) i := by
  obtain ⟨e00, e01, -⟩ := idx_facts0 t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e00, h0]; omega
  | ⟨1, _⟩ => show win0_0.index t (1 : Fin 2) * 128 + 1 * (y 1).val = (i 1).val; rw [e01, h1]; omega

/-- The same for the node-features block. -/
theorem blk0_x (c : Dev nD) (t : Fin cfg0.N) (y : S5000x128.Idx) (i : S50000x128.Idx)
    (h0 : (i 0).val = t.val * 5000 + (y 0).val) (h1 : (i 1).val = (y 1).val) :
    (iblk0 V c 1 t : S5000x128.Idx → EReal) y = (V c main_arg0 : S50000x128.Idx → EReal) i := by
  obtain ⟨-, -, e10, e11, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e10, h0]; omega
  | ⟨1, _⟩ => show win0_1.index t (1 : Fin 2) * 128 + 1 * (y 1).val = (i 1).val; rw [e11, h1]; omega

/-- The resident blocks are their whole arrays. -/
theorem blk0_wl (c : Dev nD) (t : Fin cfg0.N) (y : S128x128.Idx) :
    (iblk0 V c 2 t : S128x128.Idx → EReal) y = (V c main_arg2 : S128x128.Idx → EReal) y := by
  obtain ⟨-, -, -, -, e20, e21, -⟩ := idx_facts0 t
  unfold iblk0
  rw [View.read_apply]
  show V c main_arg2 _ = V c main_arg2 _
  congr 1
  funext a
  apply Fin.ext
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

theorem blk0_b (c : Dev nD) (t : Fin cfg0.N) (y : S1x128.Idx) :
    (iblk0 V c 3 t : S1x128.Idx → EReal) y = (V c main_v23 : S1x128.Idx → EReal) y := by
  obtain ⟨-, -, -, -, -, -, e30, e31, -⟩ := idx_facts0 t
  unfold iblk0
  rw [View.read_apply]
  show V c main_v23 _ = V c main_v23 _
  congr 1
  funext a
  apply Fin.ext
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

theorem blk0_wr (c : Dev nD) (t : Fin cfg0.N) (y : S128x128.Idx) :
    (iblk0 V c 4 t : S128x128.Idx → EReal) y = (V c main_arg4 : S128x128.Idx → EReal) y := by
  obtain ⟨-, -, -, -, -, -, -, -, e40, e41, -⟩ := idx_facts0 t
  unfold iblk0
  rw [View.read_apply]
  show V c main_arg4 _ = V c main_arg4 _
  congr 1
  funext a
  apply Fin.ext
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

/-- The layer of the arrays as region 0 finds them. -/
abbrev G0 (c : Dev nD) : S50000x128.Idx → EReal :=
  layer (V c main_v22) (V c main_arg0) (V c main_arg2) (V c main_arg4) (fun l => (V c main_v23 : S1x128.Idx → EReal) (ix2 0 l))

/-- WHAT POINT `t` WRITES BACK is block `t` of the layer of the arrays: the rows of a block depend only on the same rows
    of the two row-blocked inputs, and on the whole weights and bias. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S1x128) hz2]
  obtain ⟨-, -, -, -, -, -, -, -, -, -, e50, e51⟩ := idx_facts0 t
  have hN : t.val < 10 := by have h1 := t.isLt; have h2 : cfg0.N = 10 := N_0; omega
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = G0 V c (((cfg0.win 5).blk t).view.emb (ix2 p q))
  have hi0 : ((((cfg0.win 5).blk t).view.emb (ix2 p q)) 0).val = t.val * 5000 + p.val := by
    show win0_5.index t (0 : Fin 2) * 5000 + 1 * p.val = _; rw [e50]; omega
  have hi1 : ((((cfg0.win 5).blk t).view.emb (ix2 p q)) 1).val = q.val := by
    show win0_5.index t (1 : Fin 2) * 128 + 1 * q.val = _; rw [e51]; omega
  have hlt : t.val * 5000 + p.val < 50000 := by have := p.isLt; omega
  refine (pay0_apply _ _ _ _ _ p q).trans ?_
  refine Eq.trans ?_ (layer_at _ _ _ _ _ _ ⟨t.val * 5000 + p.val, hlt⟩ q hi0 hi1).symm
  refine congrArg (fun f => rowNormRelu f q) ?_
  refine preB_eq_pre _ _ _ _ _ _ _ _ _ p ⟨t.val * 5000 + p.val, hlt⟩ ?_ ?_ _ ?_ ?_ ?_
  · intro k; exact blk0_mean V c t (ix2 p k) (ix2 ⟨t.val * 5000 + p.val, hlt⟩ k) rfl rfl
  · intro k; exact blk0_x V c t (ix2 p k) (ix2 ⟨t.val * 5000 + p.val, hlt⟩ k) rfl rfl
  · intro y; exact blk0_wl V c t y
  · intro y; exact blk0_wr V c t y
  · intro y; exact blk0_b V c t y

/-- An index of the array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten row blocks cover the array: row `r` is in the block of point `r / 5000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e50, e51⟩ := idx_facts0 t
  refine ⟨t, flush0_5 t, ?_⟩
  rw [mem_blk0]
  intro a
  have ht : t.val = (i 0).val / 5000 := rfl
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

/-- THE ARRAY region 0 leaves: the layer of the arrays it found. -/
theorem final0 (c : Dev nD) : (dat0 V c).arrAt 5 cfg0.N = G0 V c :=
  (dat0 V c).arrAt_eq_of_cover 5 (G0 V c) (fun t _ => flushed0_eq V c t) (cover0)

/-! ## Region 1: from the blocks to the array -/

/-- The printed index maps of region 1, decided once over its ten grid points: the two row-blocked inputs and the output
    sit at row block `t`, the weights and the bias row at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated-features block at point `t` is row `5000 t + p` of the array. -/
theorem blk1_mean (c : Dev nD) (t : Fin cfg1.N) (y : S5000x128.Idx) (i : S50000x128.Idx)
    (h0 : (i 0).val = t.val * 5000 + (y 0).val) (h1 : (i 1).val = (y 1).val) :
    (iblk1 V c 0 t : S5000x128.Idx → EReal) y = (V c main_v43 : S50000x128.Idx → EReal) i := by
  obtain ⟨e00, e01, -⟩ := idx_facts1 t
  unfold iblk1
  rw [View.read_apply]
  show V c main_v43 _ = V c main_v43 _
  congr 1
  funext a
  apply Fin.ext
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- The same for the node-features block. -/
theorem blk1_x (c : Dev nD) (t : Fin cfg1.N) (y : S5000x128.Idx) (i : S50000x128.Idx)
    (h0 : (i 0).val = t.val * 5000 + (y 0).val) (h1 : (i 1).val = (y 1).val) :
    (iblk1 V c 1 t : S5000x128.Idx → EReal) y = (V c main_v24 : S50000x128.Idx → EReal) i := by
  obtain ⟨-, -, e10, e11, -⟩ := idx_facts1 t
  unfold iblk1
  rw [View.read_apply]
  show V c main_v24 _ = V c main_v24 _
  congr 1
  funext a
  apply Fin.ext
  match a with
  | ⟨0, _⟩ => show win1_1.index t (0 : Fin 2) * 5000 + 1 * (y 0).val = (i 0).val; rw [e10, h0]; omega
  | ⟨1, _⟩ => show win1_1.index t (1 : Fin 2) * 128 + 1 * (y 1).val = (i 1).val; rw [e11, h1]; omega

/-- The resident blocks are their whole arrays. -/
theorem blk1_wl (c : Dev nD) (t : Fin cfg1.N) (y : S128x128.Idx) :
    (iblk1 V c 2 t : S128x128.Idx → EReal) y = (V c main_arg5 : S128x128.Idx → EReal) y := by
  obtain ⟨-, -, -, -, e20, e21, -⟩ := idx_facts1 t
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

theorem blk1_b (c : Dev nD) (t : Fin cfg1.N) (y : S1x128.Idx) :
    (iblk1 V c 3 t : S1x128.Idx → EReal) y = (V c main_v44 : S1x128.Idx → EReal) y := by
  obtain ⟨-, -, -, -, -, -, e30, e31, -⟩ := idx_facts1 t
  unfold iblk1
  rw [View.read_apply]
  show V c main_v44 _ = V c main_v44 _
  congr 1
  funext a
  apply Fin.ext
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

theorem blk1_wr (c : Dev nD) (t : Fin cfg1.N) (y : S128x128.Idx) :
    (iblk1 V c 4 t : S128x128.Idx → EReal) y = (V c main_arg7 : S128x128.Idx → EReal) y := by
  obtain ⟨-, -, -, -, -, -, -, -, e40, e41, -⟩ := idx_facts1 t
  unfold iblk1
  rw [View.read_apply]
  show V c main_arg7 _ = V c main_arg7 _
  congr 1
  funext a
  apply Fin.ext
  match a with
  | ⟨0, _⟩ => show win1_4.index t (0 : Fin 2) * 128 + 1 * (y 0).val = (y 0).val; rw [e40]; omega
  | ⟨1, _⟩ => show win1_4.index t (1 : Fin 2) * 128 + 1 * (y 1).val = (y 1).val; rw [e41]; omega

/-- The layer of the arrays as region 1 finds them. -/
abbrev G1 (c : Dev nD) : S50000x128.Idx → EReal :=
  layer (V c main_v43) (V c main_v24) (V c main_arg5) (V c main_arg7) (fun l => (V c main_v44 : S1x128.Idx → EReal) (ix2 0 l))

/-- WHAT POINT `t` WRITES BACK is block `t` of the layer of the arrays: the rows of a block depend only on the same rows
    of the two row-blocked inputs, and on the whole weights and bias. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S1x128) hz2]
  obtain ⟨-, -, -, -, -, -, -, -, -, -, e50, e51⟩ := idx_facts1 t
  have hN : t.val < 10 := by have h1 := t.isLt; have h2 : cfg1.N = 10 := N_1; omega
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = G1 V c (((cfg1.win 5).blk t).view.emb (ix2 p q))
  have hi0 : ((((cfg1.win 5).blk t).view.emb (ix2 p q)) 0).val = t.val * 5000 + p.val := by
    show win1_5.index t (0 : Fin 2) * 5000 + 1 * p.val = _; rw [e50]; omega
  have hi1 : ((((cfg1.win 5).blk t).view.emb (ix2 p q)) 1).val = q.val := by
    show win1_5.index t (1 : Fin 2) * 128 + 1 * q.val = _; rw [e51]; omega
  have hlt : t.val * 5000 + p.val < 50000 := by have := p.isLt; omega
  refine (pay1_apply _ _ _ _ _ p q).trans ?_
  refine Eq.trans ?_ (layer_at _ _ _ _ _ _ ⟨t.val * 5000 + p.val, hlt⟩ q hi0 hi1).symm
  refine congrArg (fun f => rowNormRelu f q) ?_
  refine preB_eq_pre _ _ _ _ _ _ _ _ _ p ⟨t.val * 5000 + p.val, hlt⟩ ?_ ?_ _ ?_ ?_ ?_
  · intro k; exact blk1_mean V c t (ix2 p k) (ix2 ⟨t.val * 5000 + p.val, hlt⟩ k) rfl rfl
  · intro k; exact blk1_x V c t (ix2 p k) (ix2 ⟨t.val * 5000 + p.val, hlt⟩ k) rfl rfl
  · intro y; exact blk1_wl V c t y
  · intro y; exact blk1_wr V c t y
  · intro y; exact blk1_b V c t y

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The ten row blocks cover the array: row `r` is in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e50, e51⟩ := idx_facts1 t
  refine ⟨t, flush1_5 t, ?_⟩
  rw [mem_blk1]
  intro a
  have ht : t.val = (i 0).val / 5000 := rfl
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 128 ≤ (i 1).val ∧ (i 1).val < win1_5.index t (1 : Fin 2) * 128 + 128; rw [e51]; omega

/-- THE ARRAY region 1 leaves: the layer of the arrays it found. -/
theorem final1 (c : Dev nD) : (dat1 V c).arrAt 5 cfg1.N = G1 V c :=
  (dat1 V c).arrAt_eq_of_cover 5 (G1 V c) (fun t _ => flushed1_eq V c t) (cover1)

end Cert.KernelIdeal.Sage

end
-- ==== Proof.RefLayer.lean ====
/-
  The reference, layer by layer.

  Each of the reference's two layers is, index by index, the layer function of the specification: its two
  `dot_general`s are the sums over the contracted coordinate, its bias is broadcast along the rows, its row norm is the
  square root of the row's sum of squares started from the zero literal, and it divides by the norm floored at ε and
  clips at zero. The reference adds the bias between the two products where the kernel adds it after both; addition of
  extended reals being commutative and associative, the pre-activations agree.
-/
import proofs.«125130_j34041910788776_1_alg».proof.Proof.Gen.ReferenceIdeal.Read
import proofs.«125130_j34041910788776_1_alg».proof.Proof.Spec

noncomputable section

namespace Cert.ReferenceIdeal.Sage

open Cert.ReferenceIdeal Cert.ReferenceIdeal.Gen Cert.ReferenceIdeal.Read Idealize.ShloMosaic Idealize.ShloMosaic.ValueIdx Cert.SageSpec

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The first layer's pre-activation at node `r`, feature `j`: the two matrix products are plain sums over the contracted
    coordinate, the bias is read at `j`; the reference adds the bias before the second product. -/
theorem layer1_pre_apply (r : Fin 50000) (j : Fin 128) :
    val_main_v28 (F := Ideal) x0 x1 x2 x3 x4 (ix2 r j) = pre (val_main_v22 (F := Ideal) x0 x1) (x0) x2 x4 (fun l => x3 (ix1 l)) r j := by
  rw [val_main_v28_apply, val_main_v26_apply, val_main_v23_apply, val_main_v25_apply, val_main_v24_apply, val_main_v27_apply]
  generalize val_main_v22 (F := Ideal) x0 x1 = mean
  have el1 : ∀ k : Fin 128, lidx_main_v23 (ix2 r j) k = ix2 r k := fun k => funext fun a => Fin.ext (by
    match a with | ⟨0, _⟩ => rfl | ⟨1, _⟩ => rfl)
  have er1 : ∀ k : Fin 128, ridx_main_v23 (ix2 r j) k = ix2 k j := fun k => funext fun a => Fin.ext (by
    match a with | ⟨0, _⟩ => rfl | ⟨1, _⟩ => rfl)
  have el2 : ∀ k : Fin 128, lidx_main_v27 (ix2 r j) k = ix2 r k := fun k => funext fun a => Fin.ext (by
    match a with | ⟨0, _⟩ => rfl | ⟨1, _⟩ => rfl)
  have er2 : ∀ k : Fin 128, ridx_main_v27 (ix2 r j) k = ix2 k j := fun k => funext fun a => Fin.ext (by
    match a with | ⟨0, _⟩ => rfl | ⟨1, _⟩ => rfl)
  have eb : idx_main_v24 (idx_main_v25 (ix2 r j)) = ix1 j := funext fun a => Fin.ext (by
    match a with | ⟨0, _⟩ => rfl)
  have s1 : (∑ k : Fin 128, mean (lidx_main_v23 (ix2 r j) k) * x2 (ridx_main_v23 (ix2 r j) k)) = ∑ k : Fin 128, mean (ix2 r k) * x2 (ix2 k j) :=
    Finset.sum_congr rfl fun k _ => by rw [el1 k, er1 k]
  have s2 : (∑ k : Fin 128, x0 (lidx_main_v27 (ix2 r j) k) * x4 (ridx_main_v27 (ix2 r j) k)) = ∑ k : Fin 128, x0 (ix2 r k) * x4 (ix2 k j) :=
    Finset.sum_congr rfl fun k _ => by rw [el2 k, er2 k]
  rw [s1, s2, eb]
  exact pre_bias_first _ _ _ _ (fun l => x3 (ix1 l)) r j

/-- The first layer's result is the layer function of its aggregated input, its node input, its two weight matrices and its
    bias: square, sum the row from the zero literal, root, floor at ε, divide, clip. -/
theorem layer1_eq :
    val_main_v34 (F := Ideal) x0 x1 x2 x3 x4 = layer (val_main_v22 (F := Ideal) x0 x1) (x0) x2 x4 (fun l => x3 (ix1 l)) := by
  funext i
  obtain ⟨r, q, rfl⟩ : ∃ (r : Fin 50000) (q : Fin 128), i = ix2 r q := ⟨i 0, i 1, eq_ix2 i⟩
  rw [layer_ix2, val_main_v34_apply, val_main_v33_apply, val_main_call1_v0_apply, val_main_call1_cst_apply, val_main_v32_apply, val_main_v31_apply, val_main_v29_apply,
    val_main_call0_v2_apply, val_main_call0_v1_apply, val_main_call0_cst_apply, val_main_v30_apply, val_main_cst_4_apply]
  have ek : ∀ l : Fin 128, idx_main_call0_v1 (idx_main_call0_v2 (idx_main_v32 (ix2 r q))) l = ix2 r l := fun l => funext fun a => Fin.ext (by
    match a with | ⟨0, _⟩ => rfl | ⟨1, _⟩ => rfl)
  have hout := layer1_pre_apply x0 x1 x2 x3 x4
  have s0 : (∑ l : Fin 128, val_main_call0_v0 (F := Ideal) x0 x1 x2 x3 x4 (idx_main_call0_v1 (idx_main_call0_v2 (idx_main_v32 (ix2 r q))) l))
      = ∑ l : Fin 128, val_main_v28 (F := Ideal) x0 x1 x2 x3 x4 (ix2 r l) * val_main_v28 (F := Ideal) x0 x1 x2 x3 x4 (ix2 r l) :=
    Finset.sum_congr rfl fun l _ => by rw [ek l, val_main_call0_v0_apply]; rfl
  rw [s0]
  generalize val_main_v28 (F := Ideal) x0 x1 x2 x3 x4 = out at hout ⊢
  generalize pre (val_main_v22 (F := Ideal) x0 x1) (x0) x2 x4 (fun l => x3 (ix1 l)) = P at hout ⊢
  have s3 : (∑ l : Fin 128, out (ix2 r l) * out (ix2 r l)) = ∑ l : Fin 128, P r l * P r l :=
    Finset.sum_congr rfl fun l _ => by rw [hout r l]
  rw [hout r q, s3]
  exact rowNormRelu_init (P r) q

/-- The second layer's pre-activation at node `r`, feature `j`: the two matrix products are plain sums over the contracted
    coordinate, the bias is read at `j`; the reference adds the bias before the second product. -/
theorem layer2_pre_apply (r : Fin 50000) (j : Fin 128) :
    val_main_v59 (F := Ideal) x0 x1 x2 x3 x4 x5 x6 x7 (ix2 r j) = pre (val_main_v53 (F := Ideal) x0 x1 x2 x3 x4) (val_main_v34 (F := Ideal) x0 x1 x2 x3 x4) x5 x7 (fun l => x6 (ix1 l)) r j := by
  rw [val_main_v59_apply, val_main_v57_apply, val_main_v54_apply, val_main_v56_apply, val_main_v55_apply, val_main_v58_apply]
  generalize val_main_v53 (F := Ideal) x0 x1 x2 x3 x4 = mean
  generalize val_main_v34 (F := Ideal) x0 x1 x2 x3 x4 = h
  have el1 : ∀ k : Fin 128, lidx_main_v54 (ix2 r j) k = ix2 r k := fun k => funext fun a => Fin.ext (by
    match a with | ⟨0, _⟩ => rfl | ⟨1, _⟩ => rfl)
  have er1 : ∀ k : Fin 128, ridx_main_v54 (ix2 r j) k = ix2 k j := fun k => funext fun a => Fin.ext (by
    match a with | ⟨0, _⟩ => rfl | ⟨1, _⟩ => rfl)
  have el2 : ∀ k : Fin 128, lidx_main_v58 (ix2 r j) k = ix2 r k := fun k => funext fun a => Fin.ext (by
    match a with | ⟨0, _⟩ => rfl | ⟨1, _⟩ => rfl)
  have er2 : ∀ k : Fin 128, ridx_main_v58 (ix2 r j) k = ix2 k j := fun k => funext fun a => Fin.ext (by
    match a with | ⟨0, _⟩ => rfl | ⟨1, _⟩ => rfl)
  have eb : idx_main_v55 (idx_main_v56 (ix2 r j)) = ix1 j := funext fun a => Fin.ext (by
    match a with | ⟨0, _⟩ => rfl)
  have s1 : (∑ k : Fin 128, mean (lidx_main_v54 (ix2 r j) k) * x5 (ridx_main_v54 (ix2 r j) k)) = ∑ k : Fin 128, mean (ix2 r k) * x5 (ix2 k j) :=
    Finset.sum_congr rfl fun k _ => by rw [el1 k, er1 k]
  have s2 : (∑ k : Fin 128, h (lidx_main_v58 (ix2 r j) k) * x7 (ridx_main_v58 (ix2 r j) k)) = ∑ k : Fin 128, h (ix2 r k) * x7 (ix2 k j) :=
    Finset.sum_congr rfl fun k _ => by rw [el2 k, er2 k]
  rw [s1, s2, eb]
  exact pre_bias_first _ _ _ _ (fun l => x6 (ix1 l)) r j

/-- The second layer's result is the layer function of its aggregated input, its node input, its two weight matrices and its
    bias: square, sum the row from the zero literal, root, floor at ε, divide, clip. -/
theorem layer2_eq :
    val_main_v65 (F := Ideal) x0 x1 x2 x3 x4 x5 x6 x7 = layer (val_main_v53 (F := Ideal) x0 x1 x2 x3 x4) (val_main_v34 (F := Ideal) x0 x1 x2 x3 x4) x5 x7 (fun l => x6 (ix1 l)) := by
  funext i
  obtain ⟨r, q, rfl⟩ : ∃ (r : Fin 50000) (q : Fin 128), i = ix2 r q := ⟨i 0, i 1, eq_ix2 i⟩
  rw [layer_ix2, val_main_v65_apply, val_main_v64_apply, val_main_call3_v0_apply, val_main_call3_cst_apply, val_main_v63_apply, val_main_v62_apply, val_main_v60_apply,
    val_main_call2_v2_apply, val_main_call2_v1_apply, val_main_call2_cst_apply, val_main_v61_apply, val_main_cst_11_apply]
  have ek : ∀ l : Fin 128, idx_main_call2_v1 (idx_main_call2_v2 (idx_main_v63 (ix2 r q))) l = ix2 r l := fun l => funext fun a => Fin.ext (by
    match a with | ⟨0, _⟩ => rfl | ⟨1, _⟩ => rfl)
  have hout := layer2_pre_apply x0 x1 x2 x3 x4 x5 x6 x7
  have s0 : (∑ l : Fin 128, val_main_call2_v0 (F := Ideal) x0 x1 x2 x3 x4 x5 x6 x7 (idx_main_call2_v1 (idx_main_call2_v2 (idx_main_v63 (ix2 r q))) l))
      = ∑ l : Fin 128, val_main_v59 (F := Ideal) x0 x1 x2 x3 x4 x5 x6 x7 (ix2 r l) * val_main_v59 (F := Ideal) x0 x1 x2 x3 x4 x5 x6 x7 (ix2 r l) :=
    Finset.sum_congr rfl fun l _ => by rw [ek l, val_main_call2_v0_apply]; rfl
  rw [s0]
  generalize val_main_v59 (F := Ideal) x0 x1 x2 x3 x4 x5 x6 x7 = out at hout ⊢
  generalize pre (val_main_v53 (F := Ideal) x0 x1 x2 x3 x4) (val_main_v34 (F := Ideal) x0 x1 x2 x3 x4) x5 x7 (fun l => x6 (ix1 l)) = P at hout ⊢
  have s3 : (∑ l : Fin 128, out (ix2 r l) * out (ix2 r l)) = ∑ l : Fin 128, P r l * P r l :=
    Finset.sum_congr rfl fun l _ => by rw [hout r l]
  rw [hout r q, s3]
  exact rowNormRelu_init (P r) q

end Cert.ReferenceIdeal.Sage

end
-- ==== Proof.RefMean.lean ====
/-
  The reference's second aggregation is its first, applied to the first layer's result.

  Both layers gather the rows of their node features at the edges' sources (an index below zero wrapped by the node
  count), scatter-add them at the edges' targets into zeros, count the edges per target the same way, floor the count at
  one and divide. The second layer spells the same operations over the same edge list, so its aggregated features are
  the first aggregation's function of the first layer's result.
-/
import proofs.«125130_j34041910788776_1_alg».proof.Proof.Gen.ReferenceIdeal.Read

noncomputable section

namespace Cert.ReferenceIdeal.Sage

open Cert.ReferenceIdeal Cert.ReferenceIdeal.Gen Cert.ReferenceIdeal.Read Idealize.ShloMosaic

theorem mean2_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v53 (F := Ideal) x0 x1 x2 x3 x4 = val_main_v22 (F := Ideal) (val_main_v34 (F := Ideal) x0 x1 x2 x3 x4) x1 := by
  generalize hh : val_main_v34 (F := Ideal) x0 x1 x2 x3 x4 = h
  unfold val_main_v53 val_main_v22 val_main_v44 val_main_v13 val_main_v52 val_main_v21 val_main_v51 val_main_v20 val_main_v50 val_main_v19
    val_main_v48 val_main_v17 val_main_v49 val_main_v18 val_main_v47 val_main_v16 val_main_v46 val_main_v15 val_main_v45 val_main_v14
    val_main_v43 val_main_v12 val_main_v42 val_main_v11 val_main_v41 val_main_v10 val_main_v40 val_main_v9 val_main_v39 val_main_v8
    val_main_v38 val_main_v7 val_main_v37 val_main_v6 val_main_v36 val_main_v5 val_main_v35 val_main_v4
    val_main_cst_7 val_main_cst val_main_cst_8 val_main_cst_1 val_main_cst_9 val_main_cst_2 val_main_cst_10 val_main_cst_3
    val_main_c_5 val_main_c val_main_c_6 val_main_c_0
  rw [hh]

end Cert.ReferenceIdeal.Sage

end
-- ==== Proof.RefWhole.lean ====
/-
  The whole reference as one function of the arguments: two layers, the second fed by the first.

  `sage x e W1l b1 W1r W2l b2 W2r` is the second layer of (the aggregation of h over the edges e, h itself), where h is
  the first layer of (the aggregation of x over e, x itself). The aggregation is carried as one opaque function of the
  features and the edge list: it is the same chain of host operations in both programs and is never opened.
-/
import proofs.«125130_j34041910788776_1_alg».proof.Proof.RefLayer
import proofs.«125130_j34041910788776_1_alg».proof.Proof.RefMean

noncomputable section

namespace Cert.ReferenceIdeal.Sage

open Cert.ReferenceIdeal Cert.ReferenceIdeal.Gen Cert.ReferenceIdeal.Read Idealize.ShloMosaic Idealize.ShloMosaic.ValueIdx Cert.SageSpec

/-- The mean of the source rows' features at each target node, as the host computes it (gather, scatter-add, count,
    floor the count at one, divide). -/
abbrev meanOf (h : (⟨S50000x128, .f32⟩ : BufTy).Contents (Elt Ideal)) (e : (⟨S2x800000, .i32⟩ : BufTy).Contents (Elt Ideal)) :
    (⟨S50000x128, .f32⟩ : BufTy).Contents (Elt Ideal) := val_main_v22 (F := Ideal) h e

/-- The two-layer network. -/
def sage (x : (⟨S50000x128, .f32⟩ : BufTy).Contents (Elt Ideal)) (e : (⟨S2x800000, .i32⟩ : BufTy).Contents (Elt Ideal))
    (W1l : (⟨S128x128, .f32⟩ : BufTy).Contents (Elt Ideal)) (b1 : (⟨S128, .f32⟩ : BufTy).Contents (Elt Ideal))
    (W1r W2l : (⟨S128x128, .f32⟩ : BufTy).Contents (Elt Ideal)) (b2 : (⟨S128, .f32⟩ : BufTy).Contents (Elt Ideal))
    (W2r : (⟨S128x128, .f32⟩ : BufTy).Contents (Elt Ideal)) : (⟨S50000x128, .f32⟩ : BufTy).Contents (Elt Ideal) :=
  layer (meanOf (layer (meanOf x e) x W1l W1r (fun l => b1 (ix1 l))) e) (layer (meanOf x e) x W1l W1r (fun l => b1 (ix1 l)))
    W2l W2r (fun l => b2 (ix1 l))

/-- The reference's result is the network of its arguments. -/
theorem ref_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v65 (F := Ideal) x0 x1 x2 x3 x4 x5 x6 x7 = sage x0 x1 x2 x3 x4 x5 x6 x7 := by
  rw [layer2_eq, mean2_eq, layer1_eq]
  rfl

end Cert.ReferenceIdeal.Sage

end
-- ==== Proof.KernelValue.lean ====
/-
  The kernel program's result array as the two-layer network of its arguments.

  Read backwards from the result: the second region leaves the layer of the arrays it found at its entry; those are
  the aggregation (the host operations between the regions) of the first region's result over the edge list, that
  result itself, the second layer's weights and its bias recast as a row. The first region's result is likewise the
  layer of the aggregation of the input features, the input features, the first layer's weights and bias. The host
  aggregation is the reference's own chain of operations (gather at the sources, scatter-add at the targets, the edge
  count floored at one, the quotient), carried as one function and never opened.
-/
import proofs.«125130_j34041910788776_1_alg».proof.Proof.Blocks
import proofs.«125130_j34041910788776_1_alg».proof.Proof.RefWhole
import Idealize.ShloMosaic.Lib.StableHlo.Run

set_option maxRecDepth 16384

noncomputable section

namespace Cert.KernelIdeal.Sage

open Idealize.ShloMosaic Idealize.ShloMosaic.TcCoe Idealize.SL.Sem Idealize.ShloMosaic.StableHlo Idealize.ShloMosaic.ValueIdx
open Cert.KernelIdeal Cert.KernelIdeal.Gen Cert.SageSpec
open Cert.ReferenceIdeal.Sage (meanOf sage)

variable (m : (ℓ : Loc nD τ sig) → Buf (Elt Ideal) ℓ) (ρ : Dev nD → PrngReg)

/-! ## The edge list's two rows, as the first host operations leave them -/

theorem W1_src (c : Dev nD) : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  rfl

theorem W1_dst (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

/-! ## What the first region finds -/

set_option maxHeartbeats 4000000 in
theorem V1_mean (c : Dev nD) : V1 m ρ c main_v22 = meanOf (m ((c.tc : Thread nD τ).loc main_arg0)) (m ((c.tc : Thread nD τ).loc main_arg1)) := by
  show StableHlo.after hostOps0 (W0 m ρ c) (Proc.devRef .tc main_v22) = _
  after_results_simp
  unfold meanOf Cert.ReferenceIdeal.Read.val_main_v22 Cert.ReferenceIdeal.Read.val_main_v13 Cert.ReferenceIdeal.Read.val_main_v21 Cert.ReferenceIdeal.Read.val_main_v20 Cert.ReferenceIdeal.Read.val_main_v19 Cert.ReferenceIdeal.Read.val_main_v17 Cert.ReferenceIdeal.Read.val_main_v18 Cert.ReferenceIdeal.Read.val_main_v16 Cert.ReferenceIdeal.Read.val_main_v15 Cert.ReferenceIdeal.Read.val_main_v14 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_cst Cert.ReferenceIdeal.Read.val_main_cst_1 Cert.ReferenceIdeal.Read.val_main_cst_2 Cert.ReferenceIdeal.Read.val_main_cst_3 Cert.ReferenceIdeal.Read.val_main_c Cert.ReferenceIdeal.Read.val_main_c_0
  rfl

theorem V1_x (c : Dev nD) : V1 m ρ c main_arg0 = m ((c.tc : Thread nD τ).loc main_arg0) := by
  show StableHlo.after hostOps0 (W0 m ρ c) (Proc.devRef .tc main_arg0) = _
  after_results_simp <;> rfl

theorem V1_wl (c : Dev nD) : V1 m ρ c main_arg2 = m ((c.tc : Thread nD τ).loc main_arg2) := by
  show StableHlo.after hostOps0 (W0 m ρ c) (Proc.devRef .tc main_arg2) = _
  after_results_simp <;> rfl

theorem V1_wr (c : Dev nD) : V1 m ρ c main_arg4 = m ((c.tc : Thread nD τ).loc main_arg4) := by
  show StableHlo.after hostOps0 (W0 m ρ c) (Proc.devRef .tc main_arg4) = _
  after_results_simp <;> rfl

/-- A bias vector recast as a one-row matrix, read in that row. -/
theorem bias_cast_apply (b : S128.Idx → EReal) (h : S128.ShapeCasts S1x128) (l : Fin 128) :
    shapeCast S1x128 b h (ix2 0 l) = b (ix1 l) :=
  shapeCast_apply b h (ix2 0 l) (ix1 l) (by
    rw [Shape.rowMajor_val_two, Shape.rowMajor_val_one]
    show l.val = 0 * 128 + l.val; omega)

theorem V1_bias (c : Dev nD) (l : Fin 128) :
    (V1 m ρ c main_v23 : S1x128.Idx → EReal) (ix2 0 l) = (m ((c.tc : Thread nD τ).loc main_arg3) : S128.Idx → EReal) (ix1 l) := by
  have e : V1 m ρ c main_v23 = shapeCast S1x128 (m ((c.tc : Thread nD τ).loc main_arg3) : S128.Idx → EReal) shapeCasts_S128_S1x128 := by
    show StableHlo.after hostOps0 (W0 m ρ c) (Proc.devRef .tc main_v23) = _
    after_results_simp <;> rfl
  rw [e]
  exact bias_cast_apply _ _ l

/-! ## What the first region leaves -/

/-- The first region's result array: the first layer of the arguments. -/
theorem W2_h1 (c : Dev nD) :
    W2 m ρ c (Proc.devRef .tc main_v24)
      = layer (meanOf (m ((c.tc : Thread nD τ).loc main_arg0)) (m ((c.tc : Thread nD τ).loc main_arg1))) (m ((c.tc : Thread nD τ).loc main_arg0))
          (m ((c.tc : Thread nD τ).loc main_arg2)) (m ((c.tc : Thread nD τ).loc main_arg4)) (fun l => (m ((c.tc : Thread nD τ).loc main_arg3) : S128.Idx → EReal) (ix1 l)) := by
  refine (W2_arr m ρ c 5).trans ?_
  rw [final0 (V1 m ρ) c]
  show layer (V1 m ρ c main_v22) (V1 m ρ c main_arg0) (V1 m ρ c main_arg2) (V1 m ρ c main_arg4) (fun l => (V1 m ρ c main_v23 : S1x128.Idx → EReal) (ix2 0 l)) = _
  rw [V1_mean, V1_x, V1_wl, V1_wr]
  exact congrArg (layer _ _ _ _) (funext fun l => V1_bias m ρ c l)

/-! ## What the second region finds -/

theorem W2_b2 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results_simp <;> rfl

set_option maxHeartbeats 4000000 in
theorem V3_mean (c : Dev nD) : V3 m ρ c main_v43 = meanOf (W2 m ρ c (Proc.devRef .tc main_v24)) (m ((c.tc : Thread nD τ).loc main_arg1)) := by
  show StableHlo.after hostOps1 (W2 m ρ c) (Proc.devRef .tc main_v43) = _
  after_results_simp
  rw [W2_of_ne m ρ c main_v1 (by decide), W2_of_ne m ρ c main_v3 (by decide), W1_src, W1_dst]
  generalize W2 m ρ c (Proc.devRef .tc main_v24) = h
  generalize m ((c.tc : Thread nD τ).loc main_arg1) = e
  unfold meanOf Cert.ReferenceIdeal.Read.val_main_v22 Cert.ReferenceIdeal.Read.val_main_v13 Cert.ReferenceIdeal.Read.val_main_v21 Cert.ReferenceIdeal.Read.val_main_v20 Cert.ReferenceIdeal.Read.val_main_v19 Cert.ReferenceIdeal.Read.val_main_v17 Cert.ReferenceIdeal.Read.val_main_v18 Cert.ReferenceIdeal.Read.val_main_v16 Cert.ReferenceIdeal.Read.val_main_v15 Cert.ReferenceIdeal.Read.val_main_v14 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_cst Cert.ReferenceIdeal.Read.val_main_cst_1 Cert.ReferenceIdeal.Read.val_main_cst_2 Cert.ReferenceIdeal.Read.val_main_cst_3 Cert.ReferenceIdeal.Read.val_main_c Cert.ReferenceIdeal.Read.val_main_c_0
  rfl

theorem V3_h (c : Dev nD) : V3 m ρ c main_v24 = W2 m ρ c (Proc.devRef .tc main_v24) := by
  show StableHlo.after hostOps1 (W2 m ρ c) (Proc.devRef .tc main_v24) = _
  after_results_simp <;> rfl

theorem W2_wl2 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results_simp <;> rfl

theorem W2_wr2 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results_simp <;> rfl

theorem V3_wl (c : Dev nD) : V3 m ρ c main_arg5 = m ((c.tc : Thread nD τ).loc main_arg5) := by
  show StableHlo.after hostOps1 (W2 m ρ c) (Proc.devRef .tc main_arg5) = _
  after_results_simp
  exact W2_wl2 m ρ c

theorem V3_wr (c : Dev nD) : V3 m ρ c main_arg7 = m ((c.tc : Thread nD τ).loc main_arg7) := by
  show StableHlo.after hostOps1 (W2 m ρ c) (Proc.devRef .tc main_arg7) = _
  after_results_simp
  exact W2_wr2 m ρ c

theorem V3_bias (c : Dev nD) (l : Fin 128) :
    (V3 m ρ c main_v44 : S1x128.Idx → EReal) (ix2 0 l) = (m ((c.tc : Thread nD τ).loc main_arg6) : S128.Idx → EReal) (ix1 l) := by
  have e : V3 m ρ c main_v44 = shapeCast S1x128 (m ((c.tc : Thread nD τ).loc main_arg6) : S128.Idx → EReal) shapeCasts_S128_S1x128 := by
    show StableHlo.after hostOps1 (W2 m ρ c) (Proc.devRef .tc main_v44) = _
    after_results_simp
    rw [W2_b2]
    rfl
  rw [e]
  exact bias_cast_apply _ _ l

/-! ## The result -/

/-- The kernel program's result array is the two-layer network of its arguments. -/
theorem kernel_result (c : Dev nD) :
    W4 m ρ c (Proc.devRef .tc main_v45)
      = sage (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  refine (W4_arr m ρ c 5).trans ?_
  rw [final1 (V3 m ρ) c]
  show layer (V3 m ρ c main_v43) (V3 m ρ c main_v24) (V3 m ρ c main_arg5) (V3 m ρ c main_arg7) (fun l => (V3 m ρ c main_v44 : S1x128.Idx → EReal) (ix2 0 l)) = _
  rw [V3_mean, V3_h, V3_wl, V3_wr, W2_h1]
  unfold sage
  exact congrArg (layer _ _ _ _) (funext fun l => V3_bias m ρ c l)

end Cert.KernelIdeal.Sage

end
-- ==== Proof.lean ====
/-
  The certificate of a two-layer GraphSAGE network: the kernel program (host aggregation, a fused layer region, host
  aggregation of its result, a second fused layer region) against the plain jnp reference.

  Over the extended reals both programs compute, for each layer,
    h[r, j] = max (pre[r, j] / max (sqrt (∑ j, pre[r, j]²)) ε) 0,
    pre[r, j] = (∑ k, mean[r, k] · Wl[k, j]) + (∑ k, x[r, k] · Wr[k, j]) + b[j],
  where `mean` is the host's aggregation of the layer's input over the edge list, the same chain of host operations in
  both programs. The kernel rounds its matmul operands to bf16 (the identity at the exact values), accumulates its
  products into zeros, and adds the bias after both products where the reference adds it between them; addition of
  extended reals is commutative and associative, so the two agree with no appeal to finiteness. Each region's ten row
  blocks tile its result array, and a row of a layer depends only on the same row of its inputs, so the blocks written
  back are the blocks of the layer of the whole arrays.

  The frames are the generated ones; the idealization rewrote no operation, so `preserves` is trivial.
-/
import proofs.«125130_j34041910788776_1_alg».proof.Defs
import proofs.«125130_j34041910788776_1_alg».proof.Proof.Gen.Kernel
import proofs.«125130_j34041910788776_1_alg».proof.Proof.Gen.Kernel.Skeleton
import proofs.«125130_j34041910788776_1_alg».proof.Proof.Gen.Kernel.Launch
import proofs.«125130_j34041910788776_1_alg».proof.Proof.Gen.Kernel.Points
import proofs.«125130_j34041910788776_1_alg».proof.Proof.Gen.Kernel.Frame
import proofs.«125130_j34041910788776_1_alg».proof.Proof.Gen.KernelIdeal
import proofs.«125130_j34041910788776_1_alg».proof.Proof.Gen.KernelIdeal.Skeleton
import proofs.«125130_j34041910788776_1_alg».proof.Proof.Gen.KernelIdeal.Launch
import proofs.«125130_j34041910788776_1_alg».proof.Proof.Gen.KernelIdeal.Points
import proofs.«125130_j34041910788776_1_alg».proof.Proof.Gen.KernelIdeal.Frame
import proofs.«125130_j34041910788776_1_alg».proof.Proof.Gen.ReferenceIdeal
import proofs.«125130_j34041910788776_1_alg».proof.Proof.Gen.Pre_finite_inputs
import proofs.«125130_j34041910788776_1_alg».proof.Proof.Gen.ReferenceIdeal.Run
import proofs.«125130_j34041910788776_1_alg».proof.Proof.Gen.ReferenceIdeal.Read
import proofs.«125130_j34041910788776_1_alg».proof.Proof.KernelRun
import proofs.«125130_j34041910788776_1_alg».proof.Proof.KernelValue
import proofs.«125130_j34041910788776_1_alg».proof.Proof.RefWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the two-layer network of the arguments. -/
theorem algebraic : Cert.algebraic_KernelIdeal_ReferenceIdeal := by
  intro m ρ m' ρ' _ hagree
  refine ⟨fun c => Cert.ReferenceIdeal.Sage.sage
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Sage.kernel_result m ρ c), (h c).2⟩)
      (Cert.KernelIdeal.Sage.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v65_eq, Cert.ReferenceIdeal.Sage.ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
